-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x7 : Shape := ⟨2, ![8192, 7]⟩
abbrev S_ : Shape := ⟨0, ![]⟩

class Facts : Prop where
  bcast_S_S8192x7 : S_.BroadcastsInDim S8192x7 (![] : Fin 0 → Fin S8192x7.rank)
  reducesTo_S8192x7_S_d0_1 : S8192x7.ReducesTo [0, 1] S_
  h_S_ : 0 < S_.numel

variable [Facts]

def fn {F : FTy → Type} [FloatOps F] (main_arg0 : FVec F S8192x7 .f32) : IVec S_ 1 :=
  let main_v0 : FVec F S8192x7 .f32 := Host.absf main_arg0
  let main_cst : FVec F S_ .f32 := constant S_ .f32 0x7F800000#32
  let main_v1 : FVec F S8192x7 .f32 := broadcastInDim S8192x7 ![] bcast_S_S8192x7 main_cst
  let main_v2 : IVec S8192x7 1 := cmpf .olt main_v0 main_v1
  let main_c : IVec S_ 1 := constantI S_ 1 1#1
  let main_v3 : IVec S_ 1 := (fun x v => Host.reduce IntOp.andi x v reducesTo_S8192x7_S_d0_1 h_S_) main_v2 main_c
  main_v3
-- ==== Kernel.lean ====
abbrev S8192x7 : Shape := ⟨2, ![8192, 7]⟩
abbrev S8192x3 : Shape := ⟨2, ![8192, 3]⟩
abbrev S3x8192 : Shape := ⟨2, ![3, 8192]⟩
abbrev S8192x8192 : Shape := ⟨2, ![8192, 8192]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 4
  | .vmem => 4
  | .smem => 0
  | _ => 0

abbrev bufTy : (tb : Table) → Fin (tcTables nBuf tb) → BufTy
  | .hbm, ⟨0, _⟩ => ⟨S8192x7, .f32⟩
  | .hbm, ⟨1, _⟩ => ⟨S8192x3, .f32⟩
  | .hbm, ⟨2, _⟩ => ⟨S3x8192, .f32⟩
  | .hbm, ⟨3, _⟩ => ⟨S8192x8192, .f32⟩
  | .local _ .vmem, ⟨0, _⟩ => ⟨S8192x3, .f32⟩
  | .local _ .vmem, ⟨1, _⟩ => ⟨S3x8192, .f32⟩
  | .local _ .vmem, ⟨2, _⟩ => ⟨S1024x1024, .f32⟩
  | .local _ .vmem, ⟨3, _⟩ => ⟨S1024x1024, .f32⟩
  | _, _ => ⟨S8192x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_mult2 (i : grid0.Coords) : BitVec 32 :=
  let arg1 : BitVec 32 := BitVec.ofNat 32 (i 1).val
  let c1024_i32_0 : BitVec 32 := 1024#32
  let v2 : BitVec 32 := Scalar.muli arg1 c1024_i32_0
  v2
def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v4 : Index := Scalar.indexCast v1
  let c0 : Index := 0#32
  ![v4.toNat, 0]
def k0_off2 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v7 : Index := Scalar.indexCast v1
  let c1 : Index := 1#32
  ![v7.toNat, 1]
def k0_off3 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v10 : Index := Scalar.indexCast v1
  let c2 : Index := 2#32
  ![v10.toNat, 2]
def k0_off4 (i : grid0.Coords) : Fin 2 → Nat :=
  let c0_1 : Index := 0#32
  let arg1 : BitVec 32 := BitVec.ofNat 32 (i 1).val
  let c1024_i32_0 : BitVec 32 := 1024#32
  let v2 : BitVec 32 := Scalar.muli arg1 c1024_i32_0
  let v3 : BitVec 32 := v2
  let v13 : Index := Scalar.indexCast v3
  ![0, v13.toNat]
def k0_off5 (i : grid0.Coords) : Fin 2 → Nat :=
  let c1_2 : Index := 1#32
  let arg1 : BitVec 32 := BitVec.ofNat 32 (i 1).val
  let c1024_i32_0 : BitVec 32 := 1024#32
  let v2 : BitVec 32 := Scalar.muli arg1 c1024_i32_0
  let v3 : BitVec 32 := v2
  let v16 : Index := Scalar.indexCast v3
  ![1, v16.toNat]
def k0_off6 (i : grid0.Coords) : Fin 2 → Nat :=
  let c2_3 : Index := 2#32
  let arg1 : BitVec 32 := BitVec.ofNat 32 (i 1).val
  let c1024_i32_0 : BitVec 32 := 1024#32
  let v2 : BitVec 32 := Scalar.muli arg1 c1024_i32_0
  let v3 : BitVec 32 := v2
  let v19 : Index := Scalar.indexCast v3
  ![2, v19.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8192x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S8192x7_S8192x3_0_0 : S8192x7.Slices ![0, 0] S8192x3
  transposes_S8192x3_S3x8192_1_0 : S8192x3.Transposes [1, 0] S3x8192
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  inb_S1024x1024_S1024x1024_0_0 : ∀ a, (![0, 0] : Fin 2 → Nat) a + S1024x1024.size a ≤ S1024x1024.size a
  h_S1024x1024 : 0 < S1024x1024.numel
  hrank0 : 0 < grid0.rank
  k0_mult1_dvd : ∀ i : grid0.Coords, 8 ∣ (k0_mult1 i).toNat
  k0_mult2_dvd : ∀ i : grid0.Coords, 128 ∣ (k0_mult2 i).toNat
  k0_off1_inb : ∀ i : grid0.Coords, ∀ a, (k0_off1 i) a + S1024x1.size a ≤ S8192x3.size a
  k0_off2_inb : ∀ i : grid0.Coords, ∀ a, (k0_off2 i) a + S1024x1.size a ≤ S8192x3.size a
  k0_off3_inb : ∀ i : grid0.Coords, ∀ a, (k0_off3 i) a + S1024x1.size a ≤ S8192x3.size a
  k0_off4_inb : ∀ i : grid0.Coords, ∀ a, (k0_off4 i) a + S1x1024.size a ≤ S3x8192.size a
  k0_off5_inb : ∀ i : grid0.Coords, ∀ a, (k0_off5 i) a + S1x1024.size a ≤ S3x8192.size a
  k0_off6_inb : ∀ i : grid0.Coords, ∀ a, (k0_off6 i) a + S1x1024.size a ≤ S3x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S8192x3.size a
  hwx0_0 : ∀ i : grid0.Coords, EltTy.bits .f32 = 32 ∨ (Rect.block (s := S8192x3) S8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

abbrev win0_0 : Pipeline.Window sig grid0 :=
  Pipeline.Window.ofSpec (Memref.whole main_v0) S8192x3.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x7 : Shape := ⟨2, ![8192, 7]⟩
abbrev S8192x3 : Shape := ⟨2, ![8192, 3]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S_ : Shape := ⟨0, ![]⟩
abbrev S8192x8192 : Shape := ⟨2, ![8192, 8192]⟩

abbrev nBuf : Space → Nat
  | .hbm => 14
  | .vmem => 0
  | .smem => 0
  | _ => 0

abbrev bufTy : (tb : Table) → Fin (tcTables nBuf tb) → BufTy
  | .hbm, ⟨0, _⟩ => ⟨S8192x7, .f32⟩
  | .hbm, ⟨1, _⟩ => ⟨S8192x3, .f32⟩
  | .hbm, ⟨2, _⟩ => ⟨S8192x1x3, .f32⟩
  | .hbm, ⟨3, _⟩ => ⟨S1x8192x3, .f32⟩
  | .hbm, ⟨4, _⟩ => ⟨S8192x8192x3, .f32⟩
  | .hbm, ⟨5, _⟩ => ⟨S8192x8192x3, .f32⟩
  | .hbm, ⟨6, _⟩ => ⟨S8192x8192x3, .f32⟩
  | .hbm, ⟨7, _⟩ => ⟨S8192x8192x3, .f32⟩
  | .hbm, ⟨8, _⟩ => ⟨S_, .f32⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .i1⟩
  | .hbm, ⟨13, _⟩ => ⟨S8192x8192, .f32⟩
  | _, _ => ⟨S8192x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  slices_S8192x7_S8192x3_0_0 : S8192x7.Slices ![0, 0] S8192x3
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192
  h_S_ : 0 < S_.numel
  bcast_S_S8192x8192 : S_.BroadcastsInDim S8192x8192 (![] : Fin 0 → Fin S8192x8192.rank)

variable [Facts₀]

class Facts : Prop extends Facts₀ where

variable [Facts]
-- ==== Proof.Adjacency.lean ====
/-
  The threshold graph of pairwise L1 distances, as one function of a table of positions.

  For a table `x` of 8192 rows and 7 columns, rows `r` and `s` are joined when the L1 distance of their first three
  columns, `|x r 0 - x s 0| + |x r 1 - x s 1| + |x r 2 - x s 2|`, is at most the cutoff; the graph's entry `(r, s)` is then
  `1`, and `0` otherwise.  Everything is over the extended reals, with `|a - b|` read as `max (a - b) (-(a - b))`; no
  finiteness is needed anywhere, since the two arrangements met below differ only by the grouping of a sum of three
  terms and by a leading zero.
-/
import Idealize.ShloMosaic.PureOps.Ideal
import Idealize.ShloMosaic.PureOps.Ideal.Laws
import Idealize.ShloMosaic.Lib.ValueIdx

noncomputable section

open scoped BigOperators

namespace Cert.Adjacency

open Idealize.ShloMosaic Idealize.ShloMosaic.ValueIdx

/-- One of the first three of seven columns. -/
abbrev col (k : Fin 3) : Fin 7 := ⟨k.val, by have := k.isLt; omega⟩

/-- The absolute difference of two extended reals. -/
def gap (a b : EReal) : EReal := max (a - b) (-(a - b))

/-- The L1 distance of rows `r` and `s` over the first three columns. -/
def dist (x : (⟨2, ![8192, 7]⟩ : Shape).Idx → EReal) (r s : Fin 8192) : EReal :=
  ∑ k : Fin 3, gap (x (ix2 r (col k))) (x (ix2 s (col k)))

/-- The cutoff: the single-precision number nearest 3.6, as the extended real it denotes. -/
abbrev cutoff : EReal := Ideal.ofBits .f32 0x40666666#32

/-- A truth value as the extended real `0` or `1`. -/
def indicator (b : BitVec 1) : EReal := ((b.toNat : ℝ) : EReal)

/-- Entry `(r, s)` of the graph: `1` when the two rows are within the cutoff, else `0`. -/
def edge (x : (⟨2, ![8192, 7]⟩ : Shape).Idx → EReal) (r s : Fin 8192) : EReal :=
  indicator (Ideal.cmp .ole (dist x r s) cutoff)

/-- The whole graph. -/
def graph (x : (⟨2, ![8192, 7]⟩ : Shape).Idx → EReal) : (⟨2, ![8192, 8192]⟩ : Shape).Idx → EReal :=
  fun y => edge x (y 0) (y 1)

/-- The distance is the three gaps added left to right. -/
theorem dist_eq_three (x : (⟨2, ![8192, 7]⟩ : Shape).Idx → EReal) (r s : Fin 8192) :
    dist x r s = gap (x (ix2 r (col 0))) (x (ix2 s (col 0))) + gap (x (ix2 r (col 1))) (x (ix2 s (col 1)))
      + gap (x (ix2 r (col 2))) (x (ix2 s (col 2))) := by
  unfold dist
  rw [Fin.sum_univ_three]

/-- A one-bit word widened to 32 bits and read as a signed integer is the bit itself. -/
theorem widened_toInt (b : BitVec 1) : (b.setWidth 32).toInt = (b.toNat : Int) := by
  rcases BitVec.eq_zero_or_eq_one b with rfl | rfl <;> decide

/-- So converting the widened bit as a signed integer gives the indicator. -/
theorem signed_widened (b : BitVec 1) : (((b.setWidth 32).toInt : ℝ) : EReal) = indicator b := by
  unfold indicator
  rw [widened_toInt, Int.cast_natCast]

end Cert.Adjacency

end
-- ==== Proof.ReferenceGraph.lean ====
/-
  The reference computes the threshold graph.

  Its result at `(r, s)` is the indicator of `0 + ∑ₖ |x r k - x s k| ≤ cutoff`, the sum over the three columns kept by
  the slice; the leading zero is the reduction's initial value and drops out.
-/
import proofs.«101854_j52493090292366_2_alg».proof.Proof.Gen.ReferenceIdeal.Read
import proofs.«101854_j52493090292366_2_alg».proof.Proof.Adjacency

noncomputable section

open scoped BigOperators

namespace Cert.ReferenceIdeal.Graph

open Cert.ReferenceIdeal Cert.ReferenceIdeal.Read Cert.Adjacency
open Idealize.ShloMosaic Idealize.ShloMosaic.ValueIdx

/-- Through the two broadcasts and the slice, the left operand of the difference at `(r, s, k)` is `x` at `(r, k)`; -/
theorem left_idx (i : S8192x8192.Idx) (k : Fin 3) :
    idx_main_v0 (idx_main_v1 (idx_main_v3 (idx_main_v7 i k))) = ix2 (i 0) (col k) :=
  funext fun a => Fin.ext (by match a with | ⟨0, _⟩ => rfl | ⟨1, _⟩ => rfl)

/-- and the right operand is `x` at `(s, k)`. -/
theorem right_idx (i : S8192x8192.Idx) (k : Fin 3) :
    idx_main_v0 (idx_main_v2 (idx_main_v4 (idx_main_v7 i k))) = ix2 (i 1) (col k) :=
  funext fun a => Fin.ext (by match a with | ⟨0, _⟩ => rfl | ⟨1, _⟩ => rfl)

/-- The reference's result is the graph of its argument. -/
theorem result_eq (x : (⟨S8192x7, .f32⟩ : BufTy).Contents (Elt Ideal)) :
    val_main_v10 (F := Ideal) x = graph x := by
  funext i
  rw [val_main_v10_apply, val_main_v9_apply, val_main_v7_apply, val_main_v8_apply, val_main_cst_0_apply,
    val_main_cst_apply]
  simp only [val_main_v6_apply, val_main_v5_apply, val_main_v3_apply, val_main_v4_apply, val_main_v1_apply,
    val_main_v2_apply, val_main_v0_apply, left_idx, right_idx]
  show indicator (Ideal.cmp .ole (Ideal.ofBits .f32 0x00000000#32 + dist x (i 0) (i 1)) cutoff) = edge x (i 0) (i 1)
  rw [Ideal.ofBits_zero_f32, zero_add]
  rfl

end Cert.ReferenceIdeal.Graph

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.TileValue.lean ====
/-
  One tile of the kernel, as values.

  At a grid point the body reads three column pieces of the staged positions (1024 rows of columns 0, 1, 2) and three
  row pieces of the staged transposed positions (1024 columns of rows 0, 1, 2), and stores one 1024 × 1024 tile.  Entry
  `(p, q)` of the tile is the indicator of
      |a₀ p - b₀ q| + |a₁ p - b₁ q| + |a₂ p - b₂ q| ≤ cutoff
  where `aₖ` are the column pieces and `bₖ` the row pieces: each column piece is repeated along the tile's rows, each
  row piece along its columns, and the comparison's bit, widened to a word and converted as a signed integer, is `0` or
  `1`.
-/
import proofs.«101854_j52493090292366_2_alg».proof.Proof.Gen.KernelIdeal.Frame
import proofs.«101854_j52493090292366_2_alg».proof.Proof.Adjacency
import proofs.«101854_j52493090292366_2_alg».proof.Proof.LibBroadcast
import Idealize.ShloMosaic.Lib.Pipeline.Value
import Idealize.ShloMosaic.Lib.ValueLayout
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Tile

open Cert.KernelIdeal Cert.KernelIdeal.Gen Cert.Adjacency

/-- The zero offsets of a rank-2 rectangle. -/
theorem hz : (![0, 0] : Fin 2 → Nat) = fun _ => 0 := funext fun a => by fin_cases a <;> rfl

section AnyValues
variable {F : FTy → Type} [FloatOps F]

/-- What the body leaves in the output's staging buffer: its one store covers the whole tile, so the buffer holds the
    stored value, computed from the six pieces the loads read out of the two staged inputs `x0`, `x1`. -/
theorem out_eq (c : Dev nD) (i : grid0.Coords) (a2 : Memref sig .tc .vmem S8192x3 .f32) (h2 : a2.IsWhole)
    (a3 : Memref sig .tc .vmem S3x8192 .f32) (h3 : a3.IsWhole) (a4 : Memref sig .tc .vmem S1024x1024 .f32) (h4 : a4.IsWhole)
    (x0 : Vec F S8192x3 .f32) (x1 : Vec F S3x8192 .f32) :
    out0_A_2 c i a2 h2 a3 h3 a4 h4 x0 x1
      = k0_pay1 (View.ld x0 (Rect.unit (s := S8192x3) (k0_off1 i) S1024x1.size (k0_off1_inb i)))
          (View.ld x0 (Rect.unit (s := S8192x3) (k0_off2 i) S1024x1.size (k0_off2_inb i)))
          (View.ld x0 (Rect.unit (s := S8192x3) (k0_off3 i) S1024x1.size (k0_off3_inb i)))
          (View.ld x1 (Rect.unit (s := S3x8192) (k0_off4 i) S1x1024.size (k0_off4_inb i)))
          (View.ld x1 (Rect.unit (s := S3x8192) (k0_off5 i) S1x1024.size (k0_off5_inb i)))
          (View.ld x1 (Rect.unit (s := S3x8192) (k0_off6 i) S1x1024.size (k0_off6_inb i))) := by
  unfold out0_A_2
  rw [View.read_writes_eq_canon _ _ _ (cover0_A_2 c i a2 h2 a3 h3 a4 h4 x0 x1)]
  unfold kernelRun0_A
  dsimp only
  rw [View.canon_unit_zero hz]
  simp only [View.readAt_eq_ld, h2.read_unread, h3.read_unread]

end AnyValues

/-- An absolute value read at an index, over the extended reals. -/
theorem absf_apply {s : Shape} {φ : FTy} (a : FVec Ideal s φ) (i : s.Idx) : absf a i = max (a i) (-(a i)) := rfl

/-- The stored tile at entry `(p, q)`, over the extended reals: the indicator that the three absolute differences, added
    left to right, are within the cutoff. -/
theorem tile_apply (v5 v8 v11 : Vec Ideal S1024x1 .f32) (v14 v17 v20 : Vec Ideal S1x1024 .f32) (p q : Fin 1024) :
    k0_pay1 (F := Ideal) v5 v8 v11 v14 v17 v20 (ix2 p q)
      = indicator (Ideal.cmp .ole
          (gap (v5 (ix2 p (0 : Fin 1))) (v14 (ix2 (0 : Fin 1) q)) + gap (v8 (ix2 p (0 : Fin 1))) (v17 (ix2 (0 : Fin 1) q))
            + gap (v11 (ix2 p (0 : Fin 1))) (v20 (ix2 (0 : Fin 1) q))) cutoff) := by
  unfold k0_pay1
  simp only [shapeCast_self]
  rw [sitofp_apply, extui_apply, cmpf_apply, addf_apply, addf_apply, broadcast_apply, absf_apply, absf_apply, absf_apply,
    subf_apply, subf_apply, subf_apply,
    Cert.Layout.broadcastTo_a1_ab_apply v5 _ p q, Cert.Layout.broadcastTo_a1_ab_apply v8 _ p q,
    Cert.Layout.broadcastTo_a1_ab_apply v11 _ p q, broadcastTo_1b_ab_apply v14 _ p q, broadcastTo_1b_ab_apply v17 _ p q,
    broadcastTo_1b_ab_apply v20 _ p q]
  exact signed_widened _

end Cert.KernelIdeal.Tile
end
-- ==== Proof.WholeGraph.lean ====
/-
  From tiles to the whole graph.

  The kernel stages the positions (the table's first three columns) and their transpose whole, and walks an 8 × 8 grid;
  at point `(I, J)` it reads rows `1024·I …` of the positions and columns `1024·J …` of the transpose, and writes tile
  `(I, J)` of the 8192 × 8192 result.  Entry `(p, q)` of that tile is therefore the graph's entry
  `(1024·I + p, 1024·J + q)`; the 64 tiles cover the result, so after the run the result array is the graph of the
  argument.
-/
import proofs.«101854_j52493090292366_2_alg».proof.Proof.Gen.KernelIdeal.Value
import proofs.«101854_j52493090292366_2_alg».proof.Proof.TileValue
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Adjacency

variable (m : (ℓ : Loc nD τ sig) → Buf (Elt Ideal) ℓ) (ρ : Dev nD → PrngReg)

/-- The argument on core `c`, as a table of extended reals. -/
abbrev table (c : Dev nD) : (⟨2, ![8192, 7]⟩ : Shape).Idx → EReal := m ((c : Thread nD τ).loc main_arg0)

/-- The staged positions at `(r, k)`: the table at row `r`, column `k` (the slice keeps the first three columns). -/
theorem pos_apply (c : Dev nD) (r : Fin 8192) (k : Fin 3) :
    (V m c main_v0 : S8192x3.Idx → EReal) (ix2 r k) = table m c (ix2 r (col k)) := by
  have e : (V m c main_v0 : S8192x3.Idx → EReal)
      = extractStridedSlice S8192x3 ![0, 0] (m ((c : Thread nD τ).loc main_arg0)) slices_S8192x7_S8192x3_0_0 := by
    dsimp only [Gen.V, Gen.hostOps0]; after_results
  rw [e]
  exact extractStridedSlice_apply ![0, 0] _ _ (ix2 r k) (ix2 r (col k)) (fun a => match a with
    | ⟨0, _⟩ => by show r.val = 0 + r.val; omega
    | ⟨1, _⟩ => by show k.val = 0 + k.val; omega)

/-- The staged transposed positions at `(k, s)`: the table at row `s`, column `k`. -/
theorem posT_apply (c : Dev nD) (k : Fin 3) (s : Fin 8192) :
    (V m c main_v1 : S3x8192.Idx → EReal) (ix2 k s) = table m c (ix2 s (col k)) := by
  have e : (V m c main_v1 : S3x8192.Idx → EReal)
      = transpose S3x8192 [1, 0] (extractStridedSlice S8192x3 ![0, 0] (m ((c : Thread nD τ).loc main_arg0)) slices_S8192x7_S8192x3_0_0)
          transposes_S8192x3_S3x8192_1_0 := by
    dsimp only [Gen.V, Gen.hostOps0]; after_results
  rw [e, transpose_ix2_apply]
  exact extractStridedSlice_apply ![0, 0] _ _ (ix2 s k) (ix2 s (col k)) (fun a => match a with
    | ⟨0, _⟩ => by show s.val = 0 + s.val; omega
    | ⟨1, _⟩ => by show k.val = 0 + k.val; omega)

/-- Over the grid: the two inputs are staged whole (block index zero), and the output's block index is the grid point's
    coordinates. -/
theorem grid_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = (grid0.coords t 1).val
    ∧ (grid0.coords t 0).val < 8 ∧ (grid0.coords t 1).val < 8 :=
  (by decide +kernel : ∀ t : Fin grid0.N, _)

/-- A column piece `[1024·I, 1024·I + 1024) × {k}` of the staged positions, read at row `p` of the piece, is the table at
    row `1024·I + p`, column `k`. -/
theorem read_col (c : Dev nD) (t : Fin cfg0.N) (off : Fin 2 → Nat) (inb : ∀ a, off a + S1024x1.size a ≤ S8192x3.size a)
    (I : Nat) (k : Fin 3) (hoff : off = ![1024 * I, k.val]) (p : Fin 1024) (hI : 1024 * I + p.val < 8192) :
    View.ld (iblk m c 0 t) (Rect.unit (s := S8192x3) off S1024x1.size inb) (ix2 p (0 : Fin 1))
      = table m c (ix2 ⟨1024 * I + p.val, hI⟩ (col k)) := by
  subst hoff
  obtain ⟨e0, e1, -⟩ := grid_facts t
  rw [← pos_apply m c ⟨1024 * I + p.val, hI⟩ k]
  show V m c main_v0 (((cfg0.win 0).blk t).view.emb
      ((Rect.unit (s := S8192x3) ![1024 * I, k.val] S1024x1.size inb).idx (ix2 p (0 : Fin 1)))) = _
  refine congrArg (V m c main_v0) (funext fun a => Fin.ext ?_)
  match a with
  | ⟨0, _⟩ =>
    show win0_0.index t (0 : Fin 2) * 8192 + 1 * (1024 * I + 1 * p.val) = 1024 * I + p.val
    rw [e0]; omega
  | ⟨1, _⟩ =>
    show win0_0.index t (1 : Fin 2) * 3 + 1 * (k.val + 1 * 0) = k.val
    rw [e1]; omega

/-- A row piece `{k} × [1024·J, 1024·J + 1024)` of the staged transposed positions, read at column `q` of the piece, is
    the table at row `1024·J + q`, column `k`. -/
theorem read_row (c : Dev nD) (t : Fin cfg0.N) (off : Fin 2 → Nat) (inb : ∀ a, off a + S1x1024.size a ≤ S3x8192.size a)
    (J : Nat) (k : Fin 3) (hoff : off = ![k.val, 1024 * J]) (q : Fin 1024) (hJ : 1024 * J + q.val < 8192) :
    View.ld (iblk m c 1 t) (Rect.unit (s := S3x8192) off S1x1024.size inb) (ix2 (0 : Fin 1) q)
      = table m c (ix2 ⟨1024 * J + q.val, hJ⟩ (col k)) := by
  subst hoff
  obtain ⟨-, -, e0, e1, -⟩ := grid_facts t
  rw [← posT_apply m c k ⟨1024 * J + q.val, hJ⟩]
  show V m c main_v1 (((cfg0.win 1).blk t).view.emb
      ((Rect.unit (s := S3x8192) ![k.val, 1024 * J] S1x1024.size inb).idx (ix2 (0 : Fin 1) q))) = _
  refine congrArg (V m c main_v1) (funext fun a => Fin.ext ?_)
  match a with
  | ⟨0, _⟩ =>
    show win0_1.index t (0 : Fin 2) * 3 + 1 * (k.val + 1 * 0) = k.val
    rw [e0]; omega
  | ⟨1, _⟩ =>
    show win0_1.index t (1 : Fin 2) * 8192 + 1 * (1024 * J + 1 * q.val) = 1024 * J + q.val
    rw [e1]; omega

/-- What point `t` writes back is block `t` of the graph of the argument. -/
theorem flushed_eq (c : Dev nD) (t : Fin cfg0.N) :
    (dats m 0 c).flushed 2 t = ((cfg0.win 2).blk t).view.read (Elt Ideal) (graph (table m c)) := by
  rw [Cert.KernelIdeal.Value.flushed2_A m c t,
    Tile.out_eq c (grid0.coords t) (ms0_0 t) (hs0_0 t) (ms0_1 t) (hs0_1 t) (ms0_2 t) (hs0_2 t) (iblk m c 0 t) (iblk m c 1 t)]
  funext j
  obtain ⟨p, q, rfl⟩ : ∃ (p q : Fin 1024), j = ix2 p q := ⟨j 0, j 1, eq_ix2 j⟩
  obtain ⟨-, -, -, -, e0, e1, hI, hJ⟩ := grid_facts t
  have hp : p.val < 1024 := p.isLt
  have hq : q.val < 1024 := q.isLt
  have hr : 1024 * (grid0.coords t 0).val + p.val < 8192 := by omega
  have hs : 1024 * (grid0.coords t 1).val + q.val < 8192 := by omega
  have hemb : ((cfg0.win 2).blk t).view.emb (ix2 p q)
      = ix2 (⟨1024 * (grid0.coords t 0).val + p.val, hr⟩ : Fin 8192) (⟨1024 * (grid0.coords t 1).val + q.val, hs⟩ : Fin 8192) := by
    funext a; apply Fin.ext
    match a with
    | ⟨0, _⟩ =>
      show win0_2.index t (0 : Fin 2) * 1024 + 1 * p.val = 1024 * (grid0.coords t 0).val + p.val
      rw [e0]; omega
    | ⟨1, _⟩ =>
      show win0_2.index t (1 : Fin 2) * 1024 + 1 * q.val = 1024 * (grid0.coords t 1).val + q.val
      rw [e1]; omega
  show k0_pay1 (F := Ideal) _ _ _ _ _ _ (ix2 p q) = graph (table m c) (((cfg0.win 2).blk t).view.emb (ix2 p q))
  rw [hemb, Tile.tile_apply,
    read_col m c t _ _ (grid0.coords t 0).val 0 (k0_off1_eq _) p hr,
    read_col m c t _ _ (grid0.coords t 0).val 1 (k0_off2_eq _) p hr,
    read_col m c t _ _ (grid0.coords t 0).val 2 (k0_off3_eq _) p hr,
    read_row m c t _ _ (grid0.coords t 1).val 0 (k0_off4_eq _) q hs,
    read_row m c t _ _ (grid0.coords t 1).val 1 (k0_off5_eq _) q hs,
    read_row m c t _ _ (grid0.coords t 1).val 2 (k0_off6_eq _) q hs]
  show _ = edge (table m c) _ _
  unfold edge
  rw [dist_eq_three]

/-- An index of the result array is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v2).slice (win0_2.rect t)).set ↔ _
  rw [View.set_slice_whole, Rect.mem_set_unit]
  exact Iff.rfl

/-- Every pair of block numbers is some grid point's. -/
theorem block_onto : ∀ (b0 b1 : Fin 8), ∃ t : Fin cfg0.N, win0_2.index t = ![b0.val, b1.val] :=
  (by decide +kernel : ∀ (b0 b1 : Fin 8), ∃ t : Fin grid0.N, win0_2.index t = ![b0.val, b1.val])

/-- The 64 blocks of 1024 × 1024 cover the 8192 × 8192 array: entry `(r, s)` lies in block `(r / 1024, s / 1024)`. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have b0 : win0_2.index t (0 : Fin 2) = (i 0).val / 1024 := congrFun ht 0
  have b1 : win0_2.index t (1 : Fin 2) = (i 1).val / 1024 := congrFun ht 1
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- After the run the result array is the graph of the argument. -/
theorem final (c : Dev nD) : (dats m 0 c).arrAt 2 cfg0.N = graph (table m c) :=
  (dats m 0 c).arrAt_eq_of_cover 2 (graph (table m c)) (fun t _ => flushed_eq m c t) covered

/-- The kernel's run: every weakly fair execution ends with the result array at the graph of the argument, the argument
    unchanged. -/
theorem run : θ_run defs (onTc (τ := τ) (main (F := Ideal))) ⟨m, fun _ => 0, ρ⟩ fun r => ∀ c : Dev nD,
      r.2.mem ((c : Thread nD τ).loc main_v2) = graph (table m c)
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.KernelIdeal.Whole
end
-- ==== Proof.lean ====
/-
  The kernel and the reference compute the same threshold graph of pairwise L1 distances.

  For a table `x` of 8192 rows, entry `(r, s)` of both results is the indicator of
      |x r 0 - x s 0| + |x r 1 - x s 1| + |x r 2 - x s 2| ≤ cutoff
  over the extended reals.  The kernel adds the three absolute differences left to right, tile by tile over an 8 × 8 grid
  of 1024 × 1024 tiles (Proof/TileValue.lean, Proof/WholeGraph.lean); the reference reduces them from zero along a third
  axis (Proof/ReferenceGraph.lean).  The two differ only by that leading zero and by how the comparison's bit becomes a
  number (a widened word read signed against the bit read unsigned), so no finiteness of the inputs is used.  The frames
  of the two kernel programs are the generated ones; the reference's frame is its generated run with the result dropped;
  the idealization rewrote nothing, so there is nothing to preserve.
-/
import proofs.«101854_j52493090292366_2_alg».proof.Defs
import proofs.«101854_j52493090292366_2_alg».proof.Proof.Gen.Kernel
import proofs.«101854_j52493090292366_2_alg».proof.Proof.Gen.Kernel.Skeleton
import proofs.«101854_j52493090292366_2_alg».proof.Proof.Gen.Kernel.Launch
import proofs.«101854_j52493090292366_2_alg».proof.Proof.Gen.Kernel.Points
import proofs.«101854_j52493090292366_2_alg».proof.Proof.Gen.Kernel.Frame
import proofs.«101854_j52493090292366_2_alg».proof.Proof.Gen.KernelIdeal
import proofs.«101854_j52493090292366_2_alg».proof.Proof.Gen.KernelIdeal.Skeleton
import proofs.«101854_j52493090292366_2_alg».proof.Proof.Gen.KernelIdeal.Launch
import proofs.«101854_j52493090292366_2_alg».proof.Proof.Gen.KernelIdeal.Points
import proofs.«101854_j52493090292366_2_alg».proof.Proof.Gen.KernelIdeal.Frame
import proofs.«101854_j52493090292366_2_alg».proof.Proof.Gen.ReferenceIdeal
import proofs.«101854_j52493090292366_2_alg».proof.Proof.Gen.Pre_finite_inputs
import proofs.«101854_j52493090292366_2_alg».proof.Proof.Gen.KernelIdeal.Value
import proofs.«101854_j52493090292366_2_alg».proof.Proof.Gen.ReferenceIdeal.Run
import proofs.«101854_j52493090292366_2_alg».proof.Proof.Gen.ReferenceIdeal.Read
import proofs.«101854_j52493090292366_2_alg».proof.Proof.ReferenceGraph
import proofs.«101854_j52493090292366_2_alg».proof.Proof.WholeGraph
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the graph of the (shared) argument. -/
theorem algebraic : Cert.algebraic_KernelIdeal_ReferenceIdeal := by
  intro m ρ m' ρ' _ hagree
  refine ⟨fun c => Cert.Adjacency.graph (Cert.KernelIdeal.Whole.table m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Graph.result_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
